-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 29
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S8192x1024.size a
  hwx0_15 : ∀ i : grid0.Coords, EltTy.bits .f32 = 32 ∨ (Rect.block (s := S8192x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S8192x1024.size a
  hwx0_16 : ∀ i : grid0.Coords, EltTy.bits .f32 = 32 ∨ (Rect.block (s := S8192x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LstmCell.lean ====
/-
  One step of an LSTM cell over the extended reals, entry by entry.

  For a batch row `p` and a unit `q`, a gate's pre-activation is
      z(p,q) = (Σ_k x(p,k)·W(k,q) + Σ_k h(p,k)·U(k,q)) + b(q),
  the new cell state is  c'(p,q) = σ(z_f)·c(p,q) + σ(z_i)·tanh(z_c)  and the new hidden state is
  h'(p,q) = σ(z_o)·tanh(c'(p,q)),  with σ(z) = 1 / (1 + e^(−z)).
  Both programs compute exactly these expressions, in this order of additions and products, so no law of the
  extended reals beyond re-indexing a sum is needed to join them.
-/
import Idealize.ShloMosaic.PureOps.Ideal
import Idealize.ShloMosaic.Lib.ValueIdx

noncomputable section

namespace Cert.LstmCell

open Idealize.ShloMosaic Idealize.ShloMosaic.ValueIdx

/-- An `r × c` matrix of extended reals, indexed as the programs index their arrays. -/
abbrev Mat (r c : Nat) : Type := (⟨2, ![r, c]⟩ : Shape).Idx → EReal
/-- A vector of `n` extended reals. -/
abbrev Row (n : Nat) : Type := (⟨1, ![n]⟩ : Shape).Idx → EReal

/-- A gate's pre-activation at batch row `p`, unit `q`: the input's row times the kernel's column, plus the
    previous hidden state's row times the recurrent kernel's column, plus the bias. -/
def pre {B : Nat} (x h : Mat B 1024) (W U : Mat 1024 1024) (b : Row 1024) (p : Fin B) (q : Fin 1024) : EReal :=
  ((∑ k : Fin 1024, x (ix2 p k) * W (ix2 k q)) + (∑ k : Fin 1024, h (ix2 p k) * U (ix2 k q))) + b (ix1 q)

/-- The new cell state: forget gate times the old state plus input gate times the candidate. -/
def cellNew {B : Nat} (x h c : Mat B 1024) (Wi Ui : Mat 1024 1024) (bi : Row 1024) (Wf Uf : Mat 1024 1024) (bf : Row 1024)
    (Wc Uc : Mat 1024 1024) (bc : Row 1024) : Mat B 1024 := fun j =>
  Ideal.logistic (pre x h Wf Uf bf (j 0) (j 1)) * c j
    + Ideal.logistic (pre x h Wi Ui bi (j 0) (j 1)) * Ideal.tanh (pre x h Wc Uc bc (j 0) (j 1))

/-- The new hidden state: output gate times the hyperbolic tangent of the new cell state. -/
def hidNew {B : Nat} (x h c : Mat B 1024) (Wi Ui : Mat 1024 1024) (bi : Row 1024) (Wf Uf : Mat 1024 1024) (bf : Row 1024)
    (Wc Uc : Mat 1024 1024) (bc : Row 1024) (Wo Uo : Mat 1024 1024) (bo : Row 1024) : Mat B 1024 := fun j =>
  Ideal.logistic (pre x h Wo Uo bo (j 0) (j 1)) * Ideal.tanh (cellNew x h c Wi Ui bi Wf Uf bf Wc Uc bc j)

/-- A pre-activation at `(p, q)` reads only row `p` of the input and of the hidden state, column `q` of the two
    kernels and entry `q` of the bias: two settings that agree there have the same pre-activation. -/
theorem pre_congr {B B' : Nat} (x h : Mat B 1024) (x' h' : Mat B' 1024) (W U W' U' : Mat 1024 1024) (b b' : Row 1024)
    (p : Fin B) (p' : Fin B') (q : Fin 1024)
    (hx : ∀ k, x (ix2 p k) = x' (ix2 p' k)) (hh : ∀ k, h (ix2 p k) = h' (ix2 p' k))
    (hW : ∀ k, W (ix2 k q) = W' (ix2 k q)) (hU : ∀ k, U (ix2 k q) = U' (ix2 k q)) (hb : b (ix1 q) = b' (ix1 q)) :
    pre x h W U b p q = pre x' h' W' U' b' p' q := by
  unfold pre
  simp only [hx, hh, hW, hU, hb]

/-- The new cell state at `(p, q)` from the three pre-activations and the old state there. -/
theorem cellNew_congr {B B' : Nat} (x h c : Mat B 1024) (x' h' c' : Mat B' 1024)
    (Wi Ui Wf Uf Wc Uc Wi' Ui' Wf' Uf' Wc' Uc' : Mat 1024 1024) (bi bf bc bi' bf' bc' : Row 1024)
    (p : Fin B) (p' : Fin B') (q : Fin 1024)
    (hi : pre x h Wi Ui bi p q = pre x' h' Wi' Ui' bi' p' q) (hf : pre x h Wf Uf bf p q = pre x' h' Wf' Uf' bf' p' q)
    (hg : pre x h Wc Uc bc p q = pre x' h' Wc' Uc' bc' p' q) (hc : c (ix2 p q) = c' (ix2 p' q)) :
    cellNew x h c Wi Ui bi Wf Uf bf Wc Uc bc (ix2 p q) = cellNew x' h' c' Wi' Ui' bi' Wf' Uf' bf' Wc' Uc' bc' (ix2 p' q) := by
  show Ideal.logistic (pre x h Wf Uf bf p q) * c (ix2 p q) + Ideal.logistic (pre x h Wi Ui bi p q) * Ideal.tanh (pre x h Wc Uc bc p q)
    = Ideal.logistic (pre x' h' Wf' Uf' bf' p' q) * c' (ix2 p' q)
      + Ideal.logistic (pre x' h' Wi' Ui' bi' p' q) * Ideal.tanh (pre x' h' Wc' Uc' bc' p' q)
  rw [hi, hf, hg, hc]

/-- The new hidden state at `(p, q)` from the output gate's pre-activation and the new cell state there. -/
theorem hidNew_congr {B B' : Nat} (x h c : Mat B 1024) (x' h' c' : Mat B' 1024)
    (Wi Ui Wf Uf Wc Uc Wo Uo Wi' Ui' Wf' Uf' Wc' Uc' Wo' Uo' : Mat 1024 1024) (bi bf bc bo bi' bf' bc' bo' : Row 1024)
    (p : Fin B) (p' : Fin B') (q : Fin 1024)
    (ho : pre x h Wo Uo bo p q = pre x' h' Wo' Uo' bo' p' q)
    (hcell : cellNew x h c Wi Ui bi Wf Uf bf Wc Uc bc (ix2 p q) = cellNew x' h' c' Wi' Ui' bi' Wf' Uf' bf' Wc' Uc' bc' (ix2 p' q)) :
    hidNew x h c Wi Ui bi Wf Uf bf Wc Uc bc Wo Uo bo (ix2 p q)
      = hidNew x' h' c' Wi' Ui' bi' Wf' Uf' bf' Wc' Uc' bc' Wo' Uo' bo' (ix2 p' q) := by
  show Ideal.logistic (pre x h Wo Uo bo p q) * Ideal.tanh (cellNew x h c Wi Ui bi Wf Uf bf Wc Uc bc (ix2 p q))
    = Ideal.logistic (pre x' h' Wo' Uo' bo' p' q) * Ideal.tanh (cellNew x' h' c' Wi' Ui' bi' Wf' Uf' bf' Wc' Uc' bc' (ix2 p' q))
  rw [ho, hcell]

/-- The single-precision pattern of `1.0` denotes the real number one. -/
theorem ofBits_one : Ideal.ofBits .f32 0x3F800000#32 = 1 := by
  simp [Ideal.ofBits, Ideal.ieee, -EReal.coe_mul]; norm_num

/-- The logistic function spelled as a quotient: `1 / (1 + e^(−z))`. -/
theorem logistic_eq (z : EReal) : Ideal.div 1 (1 + Ideal.exp (-z)) = Ideal.logistic z := rfl

end Cert.LstmCell

end
-- ==== Proof.KernelCell.lean ====
/-
  What the kernel's body leaves for one block of 256 batch rows, entry by entry.

  The body loads a 256-row block of the input, of the previous hidden state and of the previous cell state, the
  eight weight matrices whole and the four biases as one-row matrices.  Each gate's pre-activation is two matrix
  products into a zero accumulator, added, plus the bias row broadcast down the block; the change of float format
  in front of the products is the identity on extended reals.  So the two stored blocks are the LSTM cell of
  `LstmCell` over the loaded blocks, with 256 rows in place of the whole batch.
-/
import proofs.«127391_j6820408066632_2_alg».proof.Proof.Gen.KernelIdeal.Skeleton
import proofs.«127391_j6820408066632_2_alg».proof.Proof.LstmCell
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LstmCell

variable {F : FTy → Type} [FloatOps F]

/-! ## The body's terms, named -/

/-- The input block times a kernel plus the hidden block times a recurrent kernel, each product accumulated from zero. -/
def proj (a1 a2 : FVec F S256x1024 .bf16) (w u : Vec F S1024x1024 .bf16) : FVec F S256x1024 .f32 :=
  addf (matmul dot_S256x1024_S1024x1024_S256x1024_1_0_0_1_n_n none a1 (shapeCast S1024x1024 w shapeCasts_S1024x1024_S1024x1024) (constant S256x1024 .f32 0x00000000#32))
    (matmul dot_S256x1024_S1024x1024_S256x1024_1_0_0_1_n_n none a2 (shapeCast S1024x1024 u shapeCasts_S1024x1024_S1024x1024) (constant S256x1024 .f32 0x00000000#32))

/-- A block plus a one-row matrix repeated on every row. -/
def biased (z : FVec F S256x1024 .f32) (b : Vec F S1x1024 .f32) : FVec F S256x1024 .f32 :=
  addf z (broadcastTo S256x1024 (shapeCast S1x1024 b shapeCasts_S1x1024_S1x1024) broadcasts_S1x1024_S256x1024)

theorem pay5_eq (v0 v2 : Vec F S256x1024 .f32) (v4 v7 : Vec F S1024x1024 .bf16) (v11 : Vec F S1x1024 .f32) :
    k0_pay5 v0 v2 v4 v7 v11 = biased (proj (k0_pay3 v0) (k0_pay4 v2) v4 v7) v11 := rfl

theorem pay6_eq (v0 v2 : Vec F S256x1024 .f32) (v15 v18 : Vec F S1024x1024 .bf16) (v22 : Vec F S1x1024 .f32) :
    k0_pay6 v0 v2 v15 v18 v22 = biased (proj (k0_pay3 v0) (k0_pay4 v2) v15 v18) v22 := rfl

theorem pay7_eq (v0 v2 : Vec F S256x1024 .f32) (v26 v29 : Vec F S1024x1024 .bf16) :
    k0_pay7 v0 v2 v26 v29 = proj (k0_pay3 v0) (k0_pay4 v2) v26 v29 := rfl

theorem pay1_eq (v14 v25 v32 : FVec F S256x1024 .f32) (v33 : Vec F S1x1024 .f32) (v52 : Vec F S256x1024 .f32) :
    k0_pay1 v14 v25 v32 v33 v52 = addf (mulf (logistic v25) v52) (mulf (logistic v14) (tanh (biased v32 v33))) := rfl

theorem pay2_eq (v1 v3 : FVec F S256x1024 .bf16) (v14 v25 v32 : FVec F S256x1024 .f32) (v33 : Vec F S1x1024 .f32)
    (v37 v40 : Vec F S1024x1024 .bf16) (v44 : Vec F S1x1024 .f32) (v52 : Vec F S256x1024 .f32) :
    k0_pay2 v1 v3 v14 v25 v32 v33 v37 v40 v44 v52
      = mulf (logistic (biased (proj v1 v3 v37 v40) v44)) (tanh (k0_pay1 v14 v25 v32 v33 v52)) := rfl

/-! ## Read at an entry, on extended reals -/

theorem lhs0 (i : S256x1024.Idx) (κ : dot_S256x1024_S1024x1024_S256x1024_1_0_0_1_n_n.contr.Idx) : (dot_S256x1024_S1024x1024_S256x1024_1_0_0_1_n_n.lhsIdx i κ 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

theorem lhs1 (i : S256x1024.Idx) (κ : dot_S256x1024_S1024x1024_S256x1024_1_0_0_1_n_n.contr.Idx) : (dot_S256x1024_S1024x1024_S256x1024_1_0_0_1_n_n.lhsIdx i κ 1).val = (κ ⟨0, by decide⟩).val :=
  dot_S256x1024_S1024x1024_S256x1024_1_0_0_1_n_n.lhsIdx_val_of_single rfl i κ

theorem rhs0 (i : S256x1024.Idx) (κ : dot_S256x1024_S1024x1024_S256x1024_1_0_0_1_n_n.contr.Idx) : (dot_S256x1024_S1024x1024_S256x1024_1_0_0_1_n_n.rhsIdx i κ 0).val = (κ ⟨0, by decide⟩).val :=
  dot_S256x1024_S1024x1024_S256x1024_1_0_0_1_n_n.rhsIdx_val_of_single rfl i κ

theorem rhs1 (i : S256x1024.Idx) (κ : dot_S256x1024_S1024x1024_S256x1024_1_0_0_1_n_n.contr.Idx) : (dot_S256x1024_S1024x1024_S256x1024_1_0_0_1_n_n.rhsIdx i κ 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- One matrix product from zero at row `r`, column `q`: the row of the left factor against the column of the right. -/
theorem mm_apply (a : FVec Ideal S256x1024 .bf16) (w : FVec Ideal S1024x1024 .bf16) (r : Fin 256) (q : Fin 1024) :
    matmul (F := Ideal) dot_S256x1024_S1024x1024_S256x1024_1_0_0_1_n_n none a (shapeCast S1024x1024 w shapeCasts_S1024x1024_S1024x1024) (constant (F := Ideal) S256x1024 .f32 0x00000000#32) (ix2 r q)
      = ∑ k : Fin 1024, a (ix2 r k) * w (ix2 k q) := by
  rw [shapeCast_self]
  refine (Ideal.matmul_constant_zero_apply dot_S256x1024_S1024x1024_S256x1024_1_0_0_1_n_n none a w (ix2 r q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r q) ((contrEquiv1 dot_S256x1024_S1024x1024_S256x1024_1_0_0_1_n_n 1024 rfl rfl).symm k) = ix2 r k := funext fun d => Fin.ext (by
    match d with
    | ⟨0, _⟩ => exact lhs0 _ _
    | ⟨1, _⟩ => exact (lhs1 _ _).trans hk)
  have er : dot_S256x1024_S1024x1024_S256x1024_1_0_0_1_n_n.rhsIdx (ix2 r q) ((contrEquiv1 dot_S256x1024_S1024x1024_S256x1024_1_0_0_1_n_n 1024 rfl rfl).symm k) = ix2 k q := funext fun d => Fin.ext (by
    match d with
    | ⟨0, _⟩ => exact (rhs0 _ _).trans hk
    | ⟨1, _⟩ => exact rhs1 _ _)
  rw [el, er]

theorem proj_apply (a1 a2 : FVec Ideal S256x1024 .bf16) (w u : FVec Ideal S1024x1024 .bf16) (r : Fin 256) (q : Fin 1024) :
    proj (F := Ideal) a1 a2 w u (ix2 r q)
      = (∑ k : Fin 1024, a1 (ix2 r k) * w (ix2 k q)) + (∑ k : Fin 1024, a2 (ix2 r k) * u (ix2 k q)) := by
  show matmul dot_S256x1024_S1024x1024_S256x1024_1_0_0_1_n_n none a1 _ _ (ix2 r q) + matmul dot_S256x1024_S1024x1024_S256x1024_1_0_0_1_n_n none a2 _ _ (ix2 r q) = _
  rw [mm_apply, mm_apply]

theorem biased_apply (z : FVec Ideal S256x1024 .f32) (b : FVec Ideal S1x1024 .f32) (r : Fin 256) (q : Fin 1024) :
    biased (F := Ideal) z b (ix2 r q) = z (ix2 r q) + b (ix2 0 q) := by
  show z (ix2 r q) + broadcastTo S256x1024 (shapeCast S1x1024 b shapeCasts_S1x1024_S1x1024) broadcasts_S1x1024_S256x1024 (ix2 r q) = _
  rw [shapeCast_self]
  congr 1
  exact broadcastTo_apply b broadcasts_S1x1024_S256x1024 (ix2 r q) (ix2 0 q) (fun d => match d with
    | ⟨0, _⟩ => by show 0 = if (1 : Nat) = 1 then 0 else r.val; rw [if_pos rfl]
    | ⟨1, _⟩ => by show q.val = if (1024 : Nat) = 1 then 0 else q.val; rw [if_neg (by decide)])

/-- A one-row matrix as a vector. -/
abbrev rowOf (b : FVec Ideal S1x1024 .f32) : Row 1024 := fun j => b (ix2 0 (j 0))

/-- A gate's pre-activation as the body computes it is `LstmCell.pre` over the loaded blocks. -/
theorem gate_apply (x h : FVec Ideal S256x1024 .f32) (w u : FVec Ideal S1024x1024 .bf16) (b : FVec Ideal S1x1024 .f32)
    (r : Fin 256) (q : Fin 1024) :
    biased (F := Ideal) (proj (k0_pay3 x) (k0_pay4 h) w u) b (ix2 r q) = pre (B := 256) x h w u (rowOf b) r q := by
  rw [biased_apply, proj_apply]
  rfl

/-- The stored block of the new cell state. -/
theorem cell_block (x h c : FVec Ideal S256x1024 .f32) (wi ui : FVec Ideal S1024x1024 .bf16) (bi : FVec Ideal S1x1024 .f32)
    (wf uf : FVec Ideal S1024x1024 .bf16) (bf : FVec Ideal S1x1024 .f32) (wc uc : FVec Ideal S1024x1024 .bf16) (bc : FVec Ideal S1x1024 .f32)
    (r : Fin 256) (q : Fin 1024) :
    k0_pay1 (F := Ideal) (k0_pay5 x h wi ui bi) (k0_pay6 x h wf uf bf) (k0_pay7 x h wc uc) bc c (ix2 r q)
      = cellNew (B := 256) x h c wi ui (rowOf bi) wf uf (rowOf bf) wc uc (rowOf bc) (ix2 r q) := by
  rw [pay1_eq, pay5_eq, pay6_eq, pay7_eq]
  show Ideal.logistic (biased (F := Ideal) (proj (k0_pay3 x) (k0_pay4 h) wf uf) bf (ix2 r q)) * c (ix2 r q)
      + Ideal.logistic (biased (F := Ideal) (proj (k0_pay3 x) (k0_pay4 h) wi ui) bi (ix2 r q))
        * Ideal.tanh (biased (F := Ideal) (proj (k0_pay3 x) (k0_pay4 h) wc uc) bc (ix2 r q)) = _
  rw [gate_apply, gate_apply, gate_apply]
  rfl

/-- The stored block of the new hidden state. -/
theorem hid_block (x h c : FVec Ideal S256x1024 .f32) (wi ui : FVec Ideal S1024x1024 .bf16) (bi : FVec Ideal S1x1024 .f32)
    (wf uf : FVec Ideal S1024x1024 .bf16) (bf : FVec Ideal S1x1024 .f32) (wc uc : FVec Ideal S1024x1024 .bf16) (bc : FVec Ideal S1x1024 .f32)
    (wo uo : FVec Ideal S1024x1024 .bf16) (bo : FVec Ideal S1x1024 .f32) (r : Fin 256) (q : Fin 1024) :
    k0_pay2 (F := Ideal) (k0_pay3 x) (k0_pay4 h) (k0_pay5 x h wi ui bi) (k0_pay6 x h wf uf bf) (k0_pay7 x h wc uc) bc wo uo bo c (ix2 r q)
      = hidNew (B := 256) x h c wi ui (rowOf bi) wf uf (rowOf bf) wc uc (rowOf bc) wo uo (rowOf bo) (ix2 r q) := by
  rw [pay2_eq]
  show Ideal.logistic (biased (F := Ideal) (proj (k0_pay3 x) (k0_pay4 h) wo uo) bo (ix2 r q))
      * Ideal.tanh (k0_pay1 (F := Ideal) (k0_pay5 x h wi ui bi) (k0_pay6 x h wf uf bf) (k0_pay7 x h wc uc) bc c (ix2 r q)) = _
  rw [gate_apply, cell_block]
  rfl

end Cert.KernelIdeal.Body

end
-- ==== Proof.KernelValue.lean ====
/-
  From blocks to whole arrays: what the kernel's two result arrays hold after the run.

  The grid has 32 points; point `t` works on batch rows 256·t … 256·t + 255.  The windows of the input, of the previous
  hidden state and of the previous cell state follow the point down the rows; the eight weight windows and the four bias
  windows always show the whole array.  Before the launch the weights only change float format (the identity on
  extended reals) and each bias vector is re-laid as a one-row matrix.  So what point `t` writes back is rows
  256·t … of the LSTM cell of the WHOLE argument arrays (a cell's row depends on that row of the inputs only), and the
  32 blocks cover all 8192 rows.
-/
import proofs.«127391_j6820408066632_2_alg».proof.Proof.Gen.KernelIdeal.Value
import proofs.«127391_j6820408066632_2_alg».proof.Proof.KernelCell
import proofs.«127391_j6820408066632_2_alg».proof.Proof.LstmCell
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Body Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Two functions of a matrix index that agree at every `(a, b)` are equal. -/
theorem funext_ix2 {α : Type} {n0 n1 : Nat} (f g : (⟨2, ![n0, n1]⟩ : Shape).Idx → α)
    (h : ∀ (a : Fin n0) (b : Fin n1), f (ix2 a b) = g (ix2 a b)) : f = g :=
  funext fun j => (congrArg f (eq_ix2 j)).trans ((h (j 0) (j 1)).trans (congrArg g (eq_ix2 j)).symm)

theorem zero_off : (![0, 0] : Fin 2 → Nat) = fun _ => 0 := funext fun a => by fin_cases a <;> rfl

/-! ## The argument arrays, and the cell over them -/

abbrev a0 (c : Dev nD) : Mat 8192 1024 := m ((c : Thread nD τ).loc main_arg0)
abbrev a1 (c : Dev nD) : Mat 8192 1024 := m ((c : Thread nD τ).loc main_arg1)
abbrev a2 (c : Dev nD) : Mat 8192 1024 := m ((c : Thread nD τ).loc main_arg2)
abbrev a3 (c : Dev nD) : Mat 1024 1024 := m ((c : Thread nD τ).loc main_arg3)
abbrev a4 (c : Dev nD) : Mat 1024 1024 := m ((c : Thread nD τ).loc main_arg4)
abbrev a5 (c : Dev nD) : Row 1024 := m ((c : Thread nD τ).loc main_arg5)
abbrev a6 (c : Dev nD) : Mat 1024 1024 := m ((c : Thread nD τ).loc main_arg6)
abbrev a7 (c : Dev nD) : Mat 1024 1024 := m ((c : Thread nD τ).loc main_arg7)
abbrev a8 (c : Dev nD) : Row 1024 := m ((c : Thread nD τ).loc main_arg8)
abbrev a9 (c : Dev nD) : Mat 1024 1024 := m ((c : Thread nD τ).loc main_arg9)
abbrev a10 (c : Dev nD) : Mat 1024 1024 := m ((c : Thread nD τ).loc main_arg10)
abbrev a11 (c : Dev nD) : Row 1024 := m ((c : Thread nD τ).loc main_arg11)
abbrev a12 (c : Dev nD) : Mat 1024 1024 := m ((c : Thread nD τ).loc main_arg12)
abbrev a13 (c : Dev nD) : Mat 1024 1024 := m ((c : Thread nD τ).loc main_arg13)
abbrev a14 (c : Dev nD) : Row 1024 := m ((c : Thread nD τ).loc main_arg14)

/-- The new cell state over the whole batch. -/
abbrev cellArr (c : Dev nD) : Mat 8192 1024 :=
  cellNew (a0 m c) (a1 m c) (a2 m c) (a3 m c) (a4 m c) (a5 m c) (a6 m c) (a7 m c) (a8 m c) (a9 m c) (a10 m c) (a11 m c)

/-- The new hidden state over the whole batch. -/
abbrev hidArr (c : Dev nD) : Mat 8192 1024 :=
  hidNew (a0 m c) (a1 m c) (a2 m c) (a3 m c) (a4 m c) (a5 m c) (a6 m c) (a7 m c) (a8 m c) (a9 m c) (a10 m c) (a11 m c)
    (a12 m c) (a13 m c) (a14 m c)

/-! ## The arrays the launch finds -/

/-- Behind the eight weight windows are the weight arguments in another float format: the same extended reals. -/
theorem found_weights (c : Dev nD) :
    (V m c main_v0 : S1024x1024.Idx → EReal) = a3 m c ∧ (V m c main_v1 : S1024x1024.Idx → EReal) = a4 m c
    ∧ (V m c main_v2 : S1024x1024.Idx → EReal) = a6 m c ∧ (V m c main_v3 : S1024x1024.Idx → EReal) = a7 m c
    ∧ (V m c main_v4 : S1024x1024.Idx → EReal) = a9 m c ∧ (V m c main_v5 : S1024x1024.Idx → EReal) = a10 m c
    ∧ (V m c main_v6 : S1024x1024.Idx → EReal) = a12 m c ∧ (V m c main_v7 : S1024x1024.Idx → EReal) = a13 m c := by
  refine ⟨?_, ?_, ?_, ?_, ?_, ?_, ?_, ?_⟩ <;> (dsimp only [Gen.V, Gen.hostOps0]; after_results; rfl)

/-- Behind the four bias windows are the bias arguments re-laid as one-row matrices. -/
theorem found_biases (c : Dev nD) :
    (V m c main_v8 : S1x1024.Idx → EReal) = shapeCast S1x1024 (a5 m c) shapeCasts_S1024_S1x1024
    ∧ (V m c main_v9 : S1x1024.Idx → EReal) = shapeCast S1x1024 (a8 m c) shapeCasts_S1024_S1x1024
    ∧ (V m c main_v10 : S1x1024.Idx → EReal) = shapeCast S1x1024 (a11 m c) shapeCasts_S1024_S1x1024
    ∧ (V m c main_v11 : S1x1024.Idx → EReal) = shapeCast S1x1024 (a14 m c) shapeCasts_S1024_S1x1024 := by
  refine ⟨?_, ?_, ?_, ?_⟩ <;> (dsimp only [Gen.V, Gen.hostOps0]; after_results; rfl)

/-! ## Where each window's block sits at a point -/

/-- The three row windows and the two result windows sit at block row `t`, block column 0. -/
theorem rows_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- The weight and bias windows sit at block (0, 0) at every point. -/
theorem whole_idx : ∀ (t : Fin cfg0.N) (a : Fin 2),
    win0_3.index t a = 0 ∧ win0_4.index t a = 0 ∧ win0_5.index t a = 0 ∧ win0_6.index t a = 0
    ∧ win0_7.index t a = 0 ∧ win0_8.index t a = 0 ∧ win0_9.index t a = 0 ∧ win0_10.index t a = 0
    ∧ win0_11.index t a = 0 ∧ win0_12.index t a = 0 ∧ win0_13.index t a = 0 ∧ win0_14.index t a = 0 :=
  (by decide +kernel : ∀ (t : Fin grid0.N) (a : Fin 2), _)

/-! ## A window's block read at an entry -/

/-- Rows 256·t … of the three batch arrays: entry `(r, k)` of the block is entry `(256·t + r, k)` of the array. -/
theorem rows_at (c : Dev nD) (t : Fin cfg0.N) (r : Fin 256) (k : Fin 1024) (p : Fin 8192) (hp : p.val = t.val * 256 + r.val) :
    iblk m c 0 t (ix2 r k) = a0 m c (ix2 p k) ∧ iblk m c 1 t (ix2 r k) = a1 m c (ix2 p k)
    ∧ iblk m c 2 t (ix2 r k) = a2 m c (ix2 p k) := by
  obtain ⟨⟨e00, e01⟩, ⟨e10, e11⟩, ⟨e20, e21⟩, -, -⟩ := rows_idx t
  refine ⟨?_, ?_, ?_⟩
  · show V m c main_arg0 (((cfg0.win 0).blk t).view.emb (ix2 r k)) = _
    rw [V_main_arg0]
    refine congrArg _ (funext fun a => Fin.ext ?_)
    match a with
    | ⟨0, _⟩ => show win0_0.index t (0 : Fin 2) * 256 + 1 * r.val = p.val; rw [e00, hp]; omega
    | ⟨1, _⟩ => show win0_0.index t (1 : Fin 2) * 1024 + 1 * k.val = k.val; rw [e01]; omega
  · show V m c main_arg1 (((cfg0.win 1).blk t).view.emb (ix2 r k)) = _
    rw [V_main_arg1]
    refine congrArg _ (funext fun a => Fin.ext ?_)
    match a with
    | ⟨0, _⟩ => show win0_1.index t (0 : Fin 2) * 256 + 1 * r.val = p.val; rw [e10, hp]; omega
    | ⟨1, _⟩ => show win0_1.index t (1 : Fin 2) * 1024 + 1 * k.val = k.val; rw [e11]; omega
  · show V m c main_arg2 (((cfg0.win 2).blk t).view.emb (ix2 r k)) = _
    rw [V_main_arg2]
    refine congrArg _ (funext fun a => Fin.ext ?_)
    match a with
    | ⟨0, _⟩ => show win0_2.index t (0 : Fin 2) * 256 + 1 * r.val = p.val; rw [e20, hp]; omega
    | ⟨1, _⟩ => show win0_2.index t (1 : Fin 2) * 1024 + 1 * k.val = k.val; rw [e21]; omega

/-- A whole square matrix read through a block at (0, 0). -/
theorem whole_read (A : S1024x1024.Idx → EReal) (i0 i1 : Nat) (h0 : i0 = 0) (h1 : i1 = 0) (j : S1024x1024.Idx) (k q : Fin 1024)
    (hj0 : (j 0).val = i0 * 1024 + 1 * k.val) (hj1 : (j 1).val = i1 * 1024 + 1 * q.val) : A j = A (ix2 k q) := by
  subst h0 h1
  refine congrArg A (funext fun a => Fin.ext ?_)
  match a with
  | ⟨0, _⟩ => show (j 0).val = k.val; omega
  | ⟨1, _⟩ => show (j 1).val = q.val; omega

/-- A vector re-laid as a one-row matrix, read through a block at (0, 0): entry `(0, q)` is entry `q`. -/
theorem row_read (b : S1024.Idx → EReal) (i1 : Nat) (h1 : i1 = 0) (j : S1x1024.Idx) (q : Fin 1024)
    (hj : (j 1).val = i1 * 1024 + 1 * q.val) : shapeCast S1x1024 b shapeCasts_S1024_S1x1024 j = b (ix1 q) := by
  subst h1
  refine (shapeCast_addUnit_apply ![1024] b shapeCasts_S1024_S1x1024 j).trans (congrArg b (funext fun a => Fin.ext ?_))
  match a with
  | ⟨0, _⟩ => show (j 1).val = q.val; omega

/-- The eight weight blocks are the weight arguments. -/
theorem weights_at (c : Dev nD) (t : Fin cfg0.N) (k q : Fin 1024) :
    iblk m c 3 t (ix2 k q) = a3 m c (ix2 k q) ∧ iblk m c 4 t (ix2 k q) = a4 m c (ix2 k q)
    ∧ iblk m c 6 t (ix2 k q) = a6 m c (ix2 k q) ∧ iblk m c 7 t (ix2 k q) = a7 m c (ix2 k q)
    ∧ iblk m c 9 t (ix2 k q) = a9 m c (ix2 k q) ∧ iblk m c 10 t (ix2 k q) = a10 m c (ix2 k q)
    ∧ iblk m c 12 t (ix2 k q) = a12 m c (ix2 k q) ∧ iblk m c 13 t (ix2 k q) = a13 m c (ix2 k q) := by
  obtain ⟨f0, f1, f2, f3, f4, f5, f6, f7⟩ := found_weights m c
  obtain ⟨z3, z4, -, z6, z7, -, z9, z10, -, z12, z13, -⟩ := whole_idx t 0
  obtain ⟨y3, y4, -, y6, y7, -, y9, y10, -, y12, y13, -⟩ := whole_idx t 1
  refine ⟨?_, ?_, ?_, ?_, ?_, ?_, ?_, ?_⟩
  · show V m c main_v0 (((cfg0.win 3).blk t).view.emb (ix2 k q)) = _
    exact (congrFun f0 _).trans (whole_read (a3 m c) _ _ z3 y3 _ k q rfl rfl)
  · show V m c main_v1 (((cfg0.win 4).blk t).view.emb (ix2 k q)) = _
    exact (congrFun f1 _).trans (whole_read (a4 m c) _ _ z4 y4 _ k q rfl rfl)
  · show V m c main_v2 (((cfg0.win 6).blk t).view.emb (ix2 k q)) = _
    exact (congrFun f2 _).trans (whole_read (a6 m c) _ _ z6 y6 _ k q rfl rfl)
  · show V m c main_v3 (((cfg0.win 7).blk t).view.emb (ix2 k q)) = _
    exact (congrFun f3 _).trans (whole_read (a7 m c) _ _ z7 y7 _ k q rfl rfl)
  · show V m c main_v4 (((cfg0.win 9).blk t).view.emb (ix2 k q)) = _
    exact (congrFun f4 _).trans (whole_read (a9 m c) _ _ z9 y9 _ k q rfl rfl)
  · show V m c main_v5 (((cfg0.win 10).blk t).view.emb (ix2 k q)) = _
    exact (congrFun f5 _).trans (whole_read (a10 m c) _ _ z10 y10 _ k q rfl rfl)
  · show V m c main_v6 (((cfg0.win 12).blk t).view.emb (ix2 k q)) = _
    exact (congrFun f6 _).trans (whole_read (a12 m c) _ _ z12 y12 _ k q rfl rfl)
  · show V m c main_v7 (((cfg0.win 13).blk t).view.emb (ix2 k q)) = _
    exact (congrFun f7 _).trans (whole_read (a13 m c) _ _ z13 y13 _ k q rfl rfl)

/-- The four bias blocks, as one-row matrices, are the bias arguments. -/
theorem biases_at (c : Dev nD) (t : Fin cfg0.N) (q : Fin 1024) :
    iblk m c 5 t (ix2 0 q) = a5 m c (ix1 q) ∧ iblk m c 8 t (ix2 0 q) = a8 m c (ix1 q)
    ∧ iblk m c 11 t (ix2 0 q) = a11 m c (ix1 q) ∧ iblk m c 14 t (ix2 0 q) = a14 m c (ix1 q) := by
  obtain ⟨f0, f1, f2, f3⟩ := found_biases m c
  obtain ⟨-, -, y5, -, -, y8, -, -, y11, -, -, y14⟩ := whole_idx t 1
  refine ⟨?_, ?_, ?_, ?_⟩
  · show V m c main_v8 (((cfg0.win 5).blk t).view.emb (ix2 0 q)) = _
    exact (congrFun f0 _).trans (row_read (a5 m c) _ y5 _ q rfl)
  · show V m c main_v9 (((cfg0.win 8).blk t).view.emb (ix2 0 q)) = _
    exact (congrFun f1 _).trans (row_read (a8 m c) _ y8 _ q rfl)
  · show V m c main_v10 (((cfg0.win 11).blk t).view.emb (ix2 0 q)) = _
    exact (congrFun f2 _).trans (row_read (a11 m c) _ y11 _ q rfl)
  · show V m c main_v11 (((cfg0.win 14).blk t).view.emb (ix2 0 q)) = _
    exact (congrFun f3 _).trans (row_read (a14 m c) _ y14 _ q rfl)

/-! ## What a point writes back -/

/-- A gate's pre-activation over the blocks at point `t`, row `r`, is the gate's pre-activation over the whole arrays at
    row `256·t + r`. -/
theorem gate_at (c : Dev nD) (t : Fin cfg0.N) (r : Fin 256) (q : Fin 1024) (p : Fin 8192) (hp : p.val = t.val * 256 + r.val)
    (w u : FVec Ideal S1024x1024 .bf16) (b : FVec Ideal S1x1024 .f32) (W U : Mat 1024 1024) (bb : Row 1024)
    (hw : ∀ k, w (ix2 k q) = W (ix2 k q)) (hu : ∀ k, u (ix2 k q) = U (ix2 k q)) (hb : b (ix2 0 q) = bb (ix1 q)) :
    pre (B := 256) (iblk m c 0 t) (iblk m c 1 t) w u (rowOf b) r q = pre (a0 m c) (a1 m c) W U bb p q :=
  pre_congr (iblk m c 0 t) (iblk m c 1 t) (a0 m c) (a1 m c) w u W U (rowOf b) bb r p q
    (fun k => (rows_at m c t r k p hp).1) (fun k => (rows_at m c t r k p hp).2.1) hw hu hb

/-- The cell over the blocks at point `t` is the cell over the whole arrays, 256·t rows further down. -/
theorem cellNew_at (c : Dev nD) (t : Fin cfg0.N) (r : Fin 256) (q : Fin 1024) (p : Fin 8192) (hp : p.val = t.val * 256 + r.val) :
    cellNew (B := 256) (iblk m c 0 t) (iblk m c 1 t) (iblk m c 2 t) (iblk m c 3 t) (iblk m c 4 t) (rowOf (iblk m c 5 t)) (iblk m c 6 t) (iblk m c 7 t) (rowOf (iblk m c 8 t))
      (iblk m c 9 t) (iblk m c 10 t) (rowOf (iblk m c 11 t)) (ix2 r q) = cellArr m c (ix2 p q) :=
  cellNew_congr (iblk m c 0 t) (iblk m c 1 t) (iblk m c 2 t) (a0 m c) (a1 m c) (a2 m c)
    (iblk m c 3 t) (iblk m c 4 t) (iblk m c 6 t) (iblk m c 7 t) (iblk m c 9 t) (iblk m c 10 t) (a3 m c) (a4 m c) (a6 m c) (a7 m c) (a9 m c) (a10 m c)
    (rowOf (iblk m c 5 t)) (rowOf (iblk m c 8 t)) (rowOf (iblk m c 11 t)) (a5 m c) (a8 m c) (a11 m c) r p q
    (gate_at m c t r q p hp (iblk m c 3 t) (iblk m c 4 t) (iblk m c 5 t) (a3 m c) (a4 m c) (a5 m c)
      (fun k => (weights_at m c t k q).1) (fun k => (weights_at m c t k q).2.1) (biases_at m c t q).1)
    (gate_at m c t r q p hp (iblk m c 6 t) (iblk m c 7 t) (iblk m c 8 t) (a6 m c) (a7 m c) (a8 m c)
      (fun k => (weights_at m c t k q).2.2.1) (fun k => (weights_at m c t k q).2.2.2.1) (biases_at m c t q).2.1)
    (gate_at m c t r q p hp (iblk m c 9 t) (iblk m c 10 t) (iblk m c 11 t) (a9 m c) (a10 m c) (a11 m c)
      (fun k => (weights_at m c t k q).2.2.2.2.1) (fun k => (weights_at m c t k q).2.2.2.2.2.1) (biases_at m c t q).2.2.1)
    (rows_at m c t r q p hp).2.2

/-- The hidden state over the blocks at point `t`, likewise. -/
theorem hidNew_at (c : Dev nD) (t : Fin cfg0.N) (r : Fin 256) (q : Fin 1024) (p : Fin 8192) (hp : p.val = t.val * 256 + r.val) :
    hidNew (B := 256) (iblk m c 0 t) (iblk m c 1 t) (iblk m c 2 t) (iblk m c 3 t) (iblk m c 4 t) (rowOf (iblk m c 5 t)) (iblk m c 6 t) (iblk m c 7 t) (rowOf (iblk m c 8 t))
      (iblk m c 9 t) (iblk m c 10 t) (rowOf (iblk m c 11 t)) (iblk m c 12 t) (iblk m c 13 t) (rowOf (iblk m c 14 t)) (ix2 r q) = hidArr m c (ix2 p q) :=
  hidNew_congr (iblk m c 0 t) (iblk m c 1 t) (iblk m c 2 t) (a0 m c) (a1 m c) (a2 m c)
    (iblk m c 3 t) (iblk m c 4 t) (iblk m c 6 t) (iblk m c 7 t) (iblk m c 9 t) (iblk m c 10 t) (iblk m c 12 t) (iblk m c 13 t) (a3 m c) (a4 m c) (a6 m c) (a7 m c) (a9 m c) (a10 m c) (a12 m c) (a13 m c)
    (rowOf (iblk m c 5 t)) (rowOf (iblk m c 8 t)) (rowOf (iblk m c 11 t)) (rowOf (iblk m c 14 t))
    (a5 m c) (a8 m c) (a11 m c) (a14 m c) r p q
    (gate_at m c t r q p hp (iblk m c 12 t) (iblk m c 13 t) (iblk m c 14 t) (a12 m c) (a13 m c) (a14 m c)
      (fun k => (weights_at m c t k q).2.2.2.2.2.2.1) (fun k => (weights_at m c t k q).2.2.2.2.2.2.2) (biases_at m c t q).2.2.2)
    (cellNew_at m c t r q p hp)

/-- WHAT POINT `t` WRITES BACK to the hidden-state array is block `t` of the hidden state over the whole arrays. -/
theorem wrote_hid (c : Dev nD) (t : Fin cfg0.N) :
    (dats m 0 c).flushed 15 t = ((cfg0.win 15).blk t).view.read (Elt Ideal) (hidArr m c) := by
  rw [Value.flushed15]
  unfold out0_15
  rw [View.canon_unit_zero zero_off]
  simp only [View.ld_unit_zero (S := S256x1024) zero_off, View.ld_unit_zero (S := S1024x1024) zero_off,
    View.ld_unit_zero (S := S1x1024) zero_off]
  have hN : cfg0.N = 32 := N_0
  have ht := t.isLt
  obtain ⟨-, -, -, ⟨o0, o1⟩, -⟩ := rows_idx t
  refine funext_ix2 (n0 := 256) (n1 := 1024) _ _ fun r q => ?_
  show _ = hidArr m c (((cfg0.win 15).blk t).view.emb (ix2 r q))
  refine ((hid_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r q).trans
    (hidNew_at m c t r q ⟨t.val * 256 + r.val, by omega⟩ rfl)).trans (congrArg (hidArr m c) (funext fun a => Fin.ext ?_))
  match a with
  | ⟨0, _⟩ => show t.val * 256 + r.val = win0_15.index t (0 : Fin 2) * 256 + 1 * r.val; rw [o0]; omega
  | ⟨1, _⟩ => show q.val = win0_15.index t (1 : Fin 2) * 1024 + 1 * q.val; rw [o1]; omega

/-- WHAT POINT `t` WRITES BACK to the cell-state array is block `t` of the cell state over the whole arrays. -/
theorem wrote_cell (c : Dev nD) (t : Fin cfg0.N) :
    (dats m 0 c).flushed 16 t = ((cfg0.win 16).blk t).view.read (Elt Ideal) (cellArr m c) := by
  rw [Value.flushed16]
  unfold out0_16
  rw [View.canon_unit_zero zero_off]
  simp only [View.ld_unit_zero (S := S256x1024) zero_off, View.ld_unit_zero (S := S1024x1024) zero_off,
    View.ld_unit_zero (S := S1x1024) zero_off]
  have hN : cfg0.N = 32 := N_0
  have ht := t.isLt
  obtain ⟨-, -, -, -, ⟨o0, o1⟩⟩ := rows_idx t
  refine funext_ix2 (n0 := 256) (n1 := 1024) _ _ fun r q => ?_
  show _ = cellArr m c (((cfg0.win 16).blk t).view.emb (ix2 r q))
  refine ((cell_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r q).trans
    (cellNew_at m c t r q ⟨t.val * 256 + r.val, by omega⟩ rfl)).trans (congrArg (cellArr m c) (funext fun a => Fin.ext ?_))
  match a with
  | ⟨0, _⟩ => show t.val * 256 + r.val = win0_16.index t (0 : Fin 2) * 256 + 1 * r.val; rw [o0]; omega
  | ⟨1, _⟩ => show q.val = win0_16.index t (1 : Fin 2) * 1024 + 1 * q.val; rw [o1]; omega

/-! ## The blocks cover the arrays -/

theorem mem_blk15 (t : Fin cfg0.N) (i : S8192x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v12_0).slice (win0_15.rect t)).set ↔ _
  rw [View.set_slice_whole, Rect.mem_set_unit]
  exact Iff.rfl

theorem mem_blk16 (t : Fin cfg0.N) (i : S8192x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v12_1).slice (win0_16.rect t)).set ↔ _
  rw [View.set_slice_whole, Rect.mem_set_unit]
  exact Iff.rfl

/-- Row `i` lies in the block of point `i / 256`. -/
theorem cover15 (i : S8192x1024.Idx) :
    ∃ t : Fin cfg0.N, (cfg0.win 15).flush t = true ∧ i ∈ ((cfg0.win 15).blk t).view.set := by
  have hN : cfg0.N = 32 := N_0
  have hi0 : (i 0).val < 8192 := (i 0).isLt
  have hi1 : (i 1).val < 1024 := (i 1).isLt
  obtain ⟨-, -, -, ⟨o0, o1⟩, -⟩ := rows_idx ⟨(i 0).val / 256, by omega⟩
  refine ⟨⟨(i 0).val / 256, by omega⟩, flush0_15 _, (mem_blk15 _ i).2 fun a => ?_⟩
  match a with
  | ⟨0, _⟩ =>
    show win0_15.index _ (0 : Fin 2) * 256 ≤ (i 0).val ∧ (i 0).val < win0_15.index _ (0 : Fin 2) * 256 + 256
    rw [o0]; show (i 0).val / 256 * 256 ≤ (i 0).val ∧ (i 0).val < (i 0).val / 256 * 256 + 256; omega
  | ⟨1, _⟩ =>
    show win0_15.index _ (1 : Fin 2) * 1024 ≤ (i 1).val ∧ (i 1).val < win0_15.index _ (1 : Fin 2) * 1024 + 1024
    rw [o1]; omega

theorem cover16 (i : S8192x1024.Idx) :
    ∃ t : Fin cfg0.N, (cfg0.win 16).flush t = true ∧ i ∈ ((cfg0.win 16).blk t).view.set := by
  have hN : cfg0.N = 32 := N_0
  have hi0 : (i 0).val < 8192 := (i 0).isLt
  have hi1 : (i 1).val < 1024 := (i 1).isLt
  obtain ⟨-, -, -, -, ⟨o0, o1⟩⟩ := rows_idx ⟨(i 0).val / 256, by omega⟩
  refine ⟨⟨(i 0).val / 256, by omega⟩, flush0_16 _, (mem_blk16 _ i).2 fun a => ?_⟩
  match a with
  | ⟨0, _⟩ =>
    show win0_16.index _ (0 : Fin 2) * 256 ≤ (i 0).val ∧ (i 0).val < win0_16.index _ (0 : Fin 2) * 256 + 256
    rw [o0]; show (i 0).val / 256 * 256 ≤ (i 0).val ∧ (i 0).val < (i 0).val / 256 * 256 + 256; omega
  | ⟨1, _⟩ =>
    show win0_16.index _ (1 : Fin 2) * 1024 ≤ (i 1).val ∧ (i 1).val < win0_16.index _ (1 : Fin 2) * 1024 + 1024
    rw [o1]; omega

/-! ## The arrays after the run -/

theorem final_hid (c : Dev nD) : (dats m 0 c).arrAt 15 cfg0.N = hidArr m c :=
  (dats m 0 c).arrAt_eq_of_cover 15 (hidArr m c) (fun t _ => wrote_hid m c t) cover15

theorem final_cell (c : Dev nD) : (dats m 0 c).arrAt 16 cfg0.N = cellArr m c :=
  (dats m 0 c).arrAt_eq_of_cover 16 (cellArr m c) (fun t _ => wrote_cell m c t) cover16

/-- Every execution of the kernel's program ends with the hidden-state array at `hidArr`, the cell-state array at
    `cellArr`, and the arguments unchanged. -/
theorem run : θ_run defs (onTc (τ := τ) (main (F := Ideal))) ⟨m, fun _ => 0, ρ⟩ fun r => ∀ c : Dev nD,
      r.2.mem ((c : Thread nD τ).loc main_v12_0) = hidArr m c
      ∧ r.2.mem ((c : Thread nD τ).loc main_v12_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hid m c), (h c).2.1.trans (final_cell m c), (h c).2.2⟩)
    (Value.run_blocks m ρ)

end Cert.KernelIdeal.Whole

end
-- ==== Proof.RefCell.lean ====
/-
  The reference, entry by entry, is the LSTM cell of `LstmCell`.

  The reference joins the four gates' kernels side by side into one 1024 × 4096 matrix (and likewise the recurrent
  kernels and the biases), forms  z = x·Wx + h·Uh + b  once, and cuts z back into four bands of 1024 columns.
  Column `off + q` of a joined matrix is column `q` of the piece that starts at `off`, so band `off` of z at
  `(p, q)` is that gate's pre-activation.  The logistic function is spelled  1 / (1 + e^(−z)).
-/
import proofs.«127391_j6820408066632_2_alg».proof.Proof.Gen.ReferenceIdeal.Read
import proofs.«127391_j6820408066632_2_alg».proof.Proof.LstmCell
import Idealize.ShloMosaic.Lib.Pipeline.Value

noncomputable section

namespace Cert.ReferenceIdeal.Cell

open Cert.ReferenceIdeal Cert.ReferenceIdeal.Gen Cert.ReferenceIdeal.Read Idealize.ShloMosaic Idealize.ShloMosaic.ValueIdx
open Cert.LstmCell

/-- Four square matrices joined along their columns, read at row `k`, column `off + q`: the piece starting at `off`. -/
theorem joined_mat (A0 A1 A2 A3 : FVec Ideal S1024x1024 .f32) (j : S1024x4096.Idx) (k q : Fin 1024) (h0 : (j 0).val = k.val) :
    ((j 1).val = 0 + q.val → val_main_v0 (F := Ideal) A0 A1 A2 A3 j = A0 (ix2 k q))
    ∧ ((j 1).val = 1024 + q.val → val_main_v0 (F := Ideal) A0 A1 A2 A3 j = A1 (ix2 k q))
    ∧ ((j 1).val = 2048 + q.val → val_main_v0 (F := Ideal) A0 A1 A2 A3 j = A2 (ix2 k q))
    ∧ ((j 1).val = 3072 + q.val → val_main_v0 (F := Ideal) A0 A1 A2 A3 j = A3 (ix2 k q)) := by
  have hi : ∀ b : Fin S1024x1024.rank, b.cast (rfl : S1024x1024.rank = S1024x4096.rank) ≠ (1 : Fin S1024x4096.rank) →
      ((ix2 k q : S1024x1024.Idx) b).val = (j (b.cast rfl)).val := fun b hb => by
    match b, hb with
    | ⟨0, _⟩, _ => exact h0.symm
    | ⟨1, _⟩, hb => exact absurd (Fin.ext rfl) hb
  unfold val_main_v0
  refine ⟨fun h1 => ?_, fun h1 => ?_, fun h1 => ?_, fun h1 => ?_⟩
  · exact concatenate_apply_piece (1 : Fin S1024x4096.rank) _ _ j 0 (by simp) S1024x1024 A0 rfl rfl 0 rfl (ix2 k q) hi h1.symm
  · exact concatenate_apply_piece (1 : Fin S1024x4096.rank) _ _ j 1 (by simp) S1024x1024 A1 rfl rfl 1024 rfl (ix2 k q) hi h1.symm
  · exact concatenate_apply_piece (1 : Fin S1024x4096.rank) _ _ j 2 (by simp) S1024x1024 A2 rfl rfl 2048 rfl (ix2 k q) hi h1.symm
  · exact concatenate_apply_piece (1 : Fin S1024x4096.rank) _ _ j 3 (by simp) S1024x1024 A3 rfl rfl 3072 rfl (ix2 k q) hi h1.symm

/-- Four vectors joined end to end, read at `off + q`. -/
theorem joined_row (b0 b1 b2 b3 : FVec Ideal S1024 .f32) (j : S4096.Idx) (q : Fin 1024) :
    ((j 0).val = 0 + q.val → val_main_v2 (F := Ideal) b0 b1 b2 b3 j = b0 (ix1 q))
    ∧ ((j 0).val = 1024 + q.val → val_main_v2 (F := Ideal) b0 b1 b2 b3 j = b1 (ix1 q))
    ∧ ((j 0).val = 2048 + q.val → val_main_v2 (F := Ideal) b0 b1 b2 b3 j = b2 (ix1 q))
    ∧ ((j 0).val = 3072 + q.val → val_main_v2 (F := Ideal) b0 b1 b2 b3 j = b3 (ix1 q)) := by
  have hi : ∀ b : Fin S1024.rank, b.cast (rfl : S1024.rank = S4096.rank) ≠ (0 : Fin S4096.rank) →
      ((ix1 q : S1024.Idx) b).val = (j (b.cast rfl)).val := fun b hb => by
    match b, hb with
    | ⟨0, _⟩, hb => exact absurd (Fin.ext rfl) hb
  unfold val_main_v2
  refine ⟨fun h1 => ?_, fun h1 => ?_, fun h1 => ?_, fun h1 => ?_⟩
  · exact concatenate_apply_piece (0 : Fin S4096.rank) _ _ j 0 (by simp) S1024 b0 rfl rfl 0 rfl (ix1 q) hi h1.symm
  · exact concatenate_apply_piece (0 : Fin S4096.rank) _ _ j 1 (by simp) S1024 b1 rfl rfl 1024 rfl (ix1 q) hi h1.symm
  · exact concatenate_apply_piece (0 : Fin S4096.rank) _ _ j 2 (by simp) S1024 b2 rfl rfl 2048 rfl (ix1 q) hi h1.symm
  · exact concatenate_apply_piece (0 : Fin S4096.rank) _ _ j 3 (by simp) S1024 b3 rfl rfl 3072 rfl (ix1 q) hi h1.symm

/-- The joined pre-activation `z = x·Wx + h·Uh + b` at row `p`, column `off + q`, for the gate whose pieces start at
    `off` in the three joined arrays: that gate's pre-activation at `(p, q)`. -/
theorem z_at (x0 x1 x2 : FVec Ideal S8192x1024 .f32) (x3 x4 : FVec Ideal S1024x1024 .f32) (x5 : FVec Ideal S1024 .f32)
    (x6 x7 : FVec Ideal S1024x1024 .f32) (x8 : FVec Ideal S1024 .f32) (x9 x10 : FVec Ideal S1024x1024 .f32) (x11 : FVec Ideal S1024 .f32)
    (x12 x13 : FVec Ideal S1024x1024 .f32) (x14 : FVec Ideal S1024 .f32)
    (W U : Mat 1024 1024) (b : Row 1024) (off : Nat)
    (hW : ∀ (j : S1024x4096.Idx) (k q : Fin 1024), (j 0).val = k.val → (j 1).val = off + q.val →
      val_main_v0 (F := Ideal) x3 x6 x9 x12 j = W (ix2 k q))
    (hU : ∀ (j : S1024x4096.Idx) (k q : Fin 1024), (j 0).val = k.val → (j 1).val = off + q.val →
      val_main_v1 (F := Ideal) x4 x7 x10 x13 j = U (ix2 k q))
    (hb : ∀ (j : S4096.Idx) (q : Fin 1024), (j 0).val = off + q.val → val_main_v2 (F := Ideal) x5 x8 x11 x14 j = b (ix1 q))
    (i : S8192x4096.Idx) (p : Fin 8192) (q : Fin 1024) (h0 : (i 0).val = p.val) (h1 : (i 1).val = off + q.val) :
    val_main_v8 (F := Ideal) x0 x1 x3 x4 x5 x6 x7 x8 x9 x10 x11 x12 x13 x14 i = pre x0 x1 W U b p q := by
  rw [val_main_v8_apply, val_main_v5_apply, val_main_v3_apply, val_main_v4_apply, val_main_v7_apply, val_main_v6_apply]
  rw [hb _ q h1]
  have ex : ∀ (y : FVec Ideal S8192x1024 .f32) (k : Fin 1024), y (lidx_main_v3 i k) = y (ix2 p k) := fun y k =>
    congrArg y (funext fun d => Fin.ext (by
      match d with
      | ⟨0, _⟩ => exact h0
      | ⟨1, _⟩ => rfl))
  show ((∑ k : Fin 1024, x0 (lidx_main_v3 i k) * val_main_v0 (F := Ideal) x3 x6 x9 x12 (ridx_main_v3 i k))
      + (∑ k : Fin 1024, x1 (lidx_main_v3 i k) * val_main_v1 (F := Ideal) x4 x7 x10 x13 (ridx_main_v3 i k))) + b (ix1 q)
    = ((∑ k : Fin 1024, x0 (ix2 p k) * W (ix2 k q)) + (∑ k : Fin 1024, x1 (ix2 p k) * U (ix2 k q))) + b (ix1 q)
  congr 2
  · exact Finset.sum_congr rfl fun k _ => by rw [ex x0 k, hW _ k q rfl h1]
  · exact Finset.sum_congr rfl fun k _ => by rw [ex x1 k, hU _ k q rfl h1]

/-- The recurrent kernels are joined the same way as the kernels. -/
theorem joined_mat' (A0 A1 A2 A3 : FVec Ideal S1024x1024 .f32) :
    val_main_v1 (F := Ideal) A0 A1 A2 A3 = val_main_v0 (F := Ideal) A0 A1 A2 A3 := rfl

/-- The reference's new cell state is `cellNew`. -/
theorem ref_cell (x0 x1 x2 : FVec Ideal S8192x1024 .f32) (x3 x4 : FVec Ideal S1024x1024 .f32) (x5 : FVec Ideal S1024 .f32)
    (x6 x7 : FVec Ideal S1024x1024 .f32) (x8 : FVec Ideal S1024 .f32) (x9 x10 : FVec Ideal S1024x1024 .f32) (x11 : FVec Ideal S1024 .f32)
    (x12 x13 : FVec Ideal S1024x1024 .f32) (x14 : FVec Ideal S1024 .f32) :
    val_main_v28 (F := Ideal) x0 x1 x2 x3 x4 x5 x6 x7 x8 x9 x10 x11 x12 x13 x14 = cellNew x0 x1 x2 x3 x4 x5 x6 x7 x8 x9 x10 x11 := by
  funext i
  have zi := z_at x0 x1 x2 x3 x4 x5 x6 x7 x8 x9 x10 x11 x12 x13 x14 x3 x4 x5 0
    (fun j k q h0 h1 => (joined_mat x3 x6 x9 x12 j k q h0).1 h1)
    (fun j k q h0 h1 => (joined_mat' x4 x7 x10 x13).symm ▸ (joined_mat x4 x7 x10 x13 j k q h0).1 h1)
    (fun j q h1 => (joined_row x5 x8 x11 x14 j q).1 h1) (idx_main_v9 i) (i 0) (i 1) rfl (Nat.zero_add _).symm
  have zf := z_at x0 x1 x2 x3 x4 x5 x6 x7 x8 x9 x10 x11 x12 x13 x14 x6 x7 x8 1024
    (fun j k q h0 h1 => (joined_mat x3 x6 x9 x12 j k q h0).2.1 h1)
    (fun j k q h0 h1 => (joined_mat' x4 x7 x10 x13).symm ▸ (joined_mat x4 x7 x10 x13 j k q h0).2.1 h1)
    (fun j q h1 => (joined_row x5 x8 x11 x14 j q).2.1 h1) (idx_main_v10 i) (i 0) (i 1) rfl rfl
  have zc := z_at x0 x1 x2 x3 x4 x5 x6 x7 x8 x9 x10 x11 x12 x13 x14 x9 x10 x11 2048
    (fun j k q h0 h1 => (joined_mat x3 x6 x9 x12 j k q h0).2.2.1 h1)
    (fun j k q h0 h1 => (joined_mat' x4 x7 x10 x13).symm ▸ (joined_mat x4 x7 x10 x13 j k q h0).2.2.1 h1)
    (fun j q h1 => (joined_row x5 x8 x11 x14 j q).2.2.1 h1) (idx_main_v11 i) (i 0) (i 1) rfl rfl
  rw [val_main_v28_apply, val_main_v26_apply, val_main_v27_apply, val_main_v24_apply, val_main_v18_apply, val_main_v25_apply,
    val_main_v22_apply, val_main_v16_apply, val_main_v20_apply, val_main_v14_apply, val_main_v19_apply, val_main_v13_apply,
    val_main_v23_apply, val_main_v21_apply, val_main_v17_apply, val_main_v15_apply,
    val_main_cst_apply, val_main_cst_0_apply, val_main_cst_1_apply, val_main_cst_2_apply,
    val_main_v9_apply, val_main_v10_apply, val_main_v11_apply]
  show Ideal.div (Ideal.ofBits .f32 0x3F800000#32) (Ideal.ofBits .f32 0x3F800000#32
        + Ideal.exp (-(val_main_v8 (F := Ideal) x0 x1 x3 x4 x5 x6 x7 x8 x9 x10 x11 x12 x13 x14 (idx_main_v10 i)))) * x2 i
      + Ideal.div (Ideal.ofBits .f32 0x3F800000#32) (Ideal.ofBits .f32 0x3F800000#32
        + Ideal.exp (-(val_main_v8 (F := Ideal) x0 x1 x3 x4 x5 x6 x7 x8 x9 x10 x11 x12 x13 x14 (idx_main_v9 i))))
        * Ideal.tanh (val_main_v8 (F := Ideal) x0 x1 x3 x4 x5 x6 x7 x8 x9 x10 x11 x12 x13 x14 (idx_main_v11 i))
    = Ideal.logistic (pre x0 x1 x6 x7 x8 (i 0) (i 1)) * x2 i
      + Ideal.logistic (pre x0 x1 x3 x4 x5 (i 0) (i 1)) * Ideal.tanh (pre x0 x1 x9 x10 x11 (i 0) (i 1))
  rw [zi, zf, zc, ofBits_one, logistic_eq, logistic_eq]

/-- The reference's new hidden state is `hidNew`. -/
theorem ref_hid (x0 x1 x2 : FVec Ideal S8192x1024 .f32) (x3 x4 : FVec Ideal S1024x1024 .f32) (x5 : FVec Ideal S1024 .f32)
    (x6 x7 : FVec Ideal S1024x1024 .f32) (x8 : FVec Ideal S1024 .f32) (x9 x10 : FVec Ideal S1024x1024 .f32) (x11 : FVec Ideal S1024 .f32)
    (x12 x13 : FVec Ideal S1024x1024 .f32) (x14 : FVec Ideal S1024 .f32) :
    val_main_v36 (F := Ideal) x0 x1 x2 x3 x4 x5 x6 x7 x8 x9 x10 x11 x12 x13 x14 = hidNew x0 x1 x2 x3 x4 x5 x6 x7 x8 x9 x10 x11 x12 x13 x14 := by
  funext i
  have zo := z_at x0 x1 x2 x3 x4 x5 x6 x7 x8 x9 x10 x11 x12 x13 x14 x12 x13 x14 3072
    (fun j k q h0 h1 => (joined_mat x3 x6 x9 x12 j k q h0).2.2.2 h1)
    (fun j k q h0 h1 => (joined_mat' x4 x7 x10 x13).symm ▸ (joined_mat x4 x7 x10 x13 j k q h0).2.2.2 h1)
    (fun j q h1 => (joined_row x5 x8 x11 x14 j q).2.2.2 h1) (idx_main_v12 i) (i 0) (i 1) rfl rfl
  rw [val_main_v36_apply, val_main_v34_apply, val_main_v35_apply, val_main_v32_apply, val_main_v30_apply, val_main_v29_apply,
    val_main_v33_apply, val_main_v31_apply, val_main_cst_3_apply, val_main_cst_4_apply, val_main_v12_apply]
  show Ideal.div (Ideal.ofBits .f32 0x3F800000#32) (Ideal.ofBits .f32 0x3F800000#32
        + Ideal.exp (-(val_main_v8 (F := Ideal) x0 x1 x3 x4 x5 x6 x7 x8 x9 x10 x11 x12 x13 x14 (idx_main_v12 i))))
        * Ideal.tanh (val_main_v28 (F := Ideal) x0 x1 x2 x3 x4 x5 x6 x7 x8 x9 x10 x11 x12 x13 x14 i)
    = Ideal.logistic (pre x0 x1 x12 x13 x14 (i 0) (i 1)) * Ideal.tanh (cellNew x0 x1 x2 x3 x4 x5 x6 x7 x8 x9 x10 x11 i)
  rw [zo, ref_cell, ofBits_one, logistic_eq]

end Cert.ReferenceIdeal.Cell

end
-- ==== Proof.lean ====
/-
  One LSTM cell step, computed by a kernel over blocks of 256 batch rows, against the reference: the proof of `Cert.Claim`.

  THE MATHEMATICS.  For batch row p and unit q, with σ(z) = 1 / (1 + e^(−z)),
      z_g(p,q) = (Σ_k x(p,k)·W_g(k,q) + Σ_k h(p,k)·U_g(k,q)) + b_g(q)        for the four gates g ∈ {i, f, c, o},
      c'(p,q)  = σ(z_f)·c(p,q) + σ(z_i)·tanh(z_c),        h'(p,q) = σ(z_o)·tanh(c'(p,q))
  (`LstmCell`).  The kernel computes each z_g by two matrix products of a 256-row block against the gate's own two weight
  matrices (fed in a narrower float format, which changes nothing on extended reals) and adds the bias row
  (`KernelCell`); a row of the cell depends on that row of the inputs only, so the 32 blocks written back are the cell of
  the whole arrays (`KernelValue`).  The reference joins the four gates' weights side by side, multiplies once, and
  cuts the product into four bands; column `off + q` of a joined matrix is column `q` of its piece, so each band is
  that gate's z_g, and its logistic function is spelled as the quotient above (`RefCell`).  Both sides add and multiply
  in the same order, so no law of the extended reals is needed beyond re-indexing the sums, and the precondition that
  the inputs are finite is never opened.

  The three frame claims are the generated frame runs (the reference's is its generated run with the results dropped);
  the kernel's idealization rewrote nothing, so `preserves` is `True`.
-/
import proofs.«127391_j6820408066632_2_alg».proof.Defs
import proofs.«127391_j6820408066632_2_alg».proof.Proof.Gen.Kernel
import proofs.«127391_j6820408066632_2_alg».proof.Proof.Gen.Kernel.Skeleton
import proofs.«127391_j6820408066632_2_alg».proof.Proof.Gen.Kernel.Launch
import proofs.«127391_j6820408066632_2_alg».proof.Proof.Gen.Kernel.Points
import proofs.«127391_j6820408066632_2_alg».proof.Proof.Gen.Kernel.Frame
import proofs.«127391_j6820408066632_2_alg».proof.Proof.Gen.KernelIdeal
import proofs.«127391_j6820408066632_2_alg».proof.Proof.Gen.KernelIdeal.Skeleton
import proofs.«127391_j6820408066632_2_alg».proof.Proof.Gen.KernelIdeal.Launch
import proofs.«127391_j6820408066632_2_alg».proof.Proof.Gen.KernelIdeal.Points
import proofs.«127391_j6820408066632_2_alg».proof.Proof.Gen.KernelIdeal.Frame
import proofs.«127391_j6820408066632_2_alg».proof.Proof.Gen.ReferenceIdeal
import proofs.«127391_j6820408066632_2_alg».proof.Proof.Gen.Pre_finite_inputs
import proofs.«127391_j6820408066632_2_alg».proof.Proof.Gen.KernelIdeal.Value
import proofs.«127391_j6820408066632_2_alg».proof.Proof.Gen.ReferenceIdeal.Run
import proofs.«127391_j6820408066632_2_alg».proof.Proof.Gen.ReferenceIdeal.Read
import proofs.«127391_j6820408066632_2_alg».proof.Proof.KernelValue
import proofs.«127391_j6820408066632_2_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the fifteen arguments, both programs end with the new hidden state and the new cell
    state of `LstmCell` over those arguments. -/
theorem algebraic : Cert.algebraic_KernelIdeal_ReferenceIdeal := by
  intro m ρ m' ρ' _ hagree
  refine ⟨fun c => Cert.KernelIdeal.Whole.hidArr m c, fun c => Cert.KernelIdeal.Whole.cellArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v36_eq, Cert.ReferenceIdeal.Cell.ref_hid,
      e0, e1, e2, e3, e4, e5, e6, e7, e8, e9, e10, e11, e12, e13, e14]
  · obtain ⟨e0, e1, e2, e3, e4, e5, e6, e7, e8, e9, e10, e11, -⟩ := hagree c
    rw [Cert.ReferenceIdeal.Read.val_main_v28_eq, Cert.ReferenceIdeal.Cell.ref_cell,
      e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
